-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S8x512x128 .f32 .bf16
  ∧ IdealRules.truncf_extf.Statement Cert.KernelIdeal.S8x512x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x128 : Shape := ⟨3, ![128, 512, 128]⟩
abbrev S_ : Shape := ⟨0, ![]⟩

class Facts : Prop where
  bcast_S_S128x512x128 : S_.BroadcastsInDim S128x512x128 (![] : Fin 0 → Fin S128x512x128.rank)
  reducesTo_S128x512x128_S_d0_1_2 : S128x512x128.ReducesTo [0, 1, 2] S_
  h_S_ : 0 < S_.numel

variable [Facts]

def fn {F : FTy → Type} [FloatOps F] (main_arg0 : FVec F S128x512x128 .f32) (main_arg1 : FVec F S128x512x128 .f32) : IVec S_ 1 :=
  let main_v0 : FVec F S128x512x128 .f32 := Host.absf main_arg0
  let main_cst : FVec F S_ .f32 := constant S_ .f32 0x7F800000#32
  let main_v1 : FVec F S128x512x128 .f32 := broadcastInDim S128x512x128 ![] bcast_S_S128x512x128 main_cst
  let main_v2 : IVec S128x512x128 1 := cmpf .olt main_v0 main_v1
  let main_c : IVec S_ 1 := constantI S_ 1 1#1
  let main_v3 : IVec S_ 1 := (fun x v => Host.reduce IntOp.andi x v reducesTo_S128x512x128_S_d0_1_2 h_S_) main_v2 main_c
  let main_v4 : FVec F S128x512x128 .f32 := Host.absf main_arg1
  let main_cst_0 : FVec F S_ .f32 := constant S_ .f32 0x7F800000#32
  let main_v5 : FVec F S128x512x128 .f32 := broadcastInDim S128x512x128 ![] bcast_S_S128x512x128 main_cst_0
  let main_v6 : IVec S128x512x128 1 := cmpf .olt main_v4 main_v5
  let main_c_1 : IVec S_ 1 := constantI S_ 1 1#1
  let main_v7 : IVec S_ 1 := (fun x v => Host.reduce IntOp.andi x v reducesTo_S128x512x128_S_d0_1_2 h_S_) main_v6 main_c_1
  let main_v8 : IVec S_ 1 := andi main_v3 main_v7
  main_v8
-- ==== Kernel.lean ====
abbrev S128x512x128 : Shape := ⟨3, ![128, 512, 128]⟩
abbrev S128x128 : Shape := ⟨2, ![128, 128]⟩
abbrev S8x512x128 : Shape := ⟨3, ![8, 512, 128]⟩
abbrev S8x128 : Shape := ⟨2, ![8, 128]⟩
abbrev S8x512 : Shape := ⟨2, ![8, 512]⟩
abbrev S8x512x512 : Shape := ⟨3, ![8, 512, 512]⟩
abbrev S8x1x512 : Shape := ⟨3, ![8, 1, 512]⟩
abbrev S8 : Shape := ⟨1, ![8]⟩
abbrev S8x1 : Shape := ⟨2, ![8, 1]⟩
abbrev S128x1 : Shape := ⟨2, ![128, 1]⟩
abbrev S128 : Shape := ⟨1, ![128]⟩

abbrev nBuf : Space → Nat
  | .hbm => 5
  | .vmem => 6
  | .smem => 0
  | _ => 0

abbrev bufTy : (tb : Table) → Fin (tcTables nBuf tb) → BufTy
  | .hbm, ⟨0, _⟩ => ⟨S128x512x128, .f32⟩
  | .hbm, ⟨1, _⟩ => ⟨S128x512x128, .f32⟩
  | .hbm, ⟨2, _⟩ => ⟨S128x128, .f32⟩
  | .hbm, ⟨3, _⟩ => ⟨S128x1, .f32⟩
  | .hbm, ⟨4, _⟩ => ⟨S128, .f32⟩
  | .local _ .vmem, ⟨0, _⟩ => ⟨S8x512x128, .f32⟩
  | .local _ .vmem, ⟨1, _⟩ => ⟨S8x512x128, .f32⟩
  | .local _ .vmem, ⟨2, _⟩ => ⟨S8x512x128, .f32⟩
  | .local _ .vmem, ⟨3, _⟩ => ⟨S8x512x128, .f32⟩
  | .local _ .vmem, ⟨4, _⟩ => ⟨S8x128, .f32⟩
  | .local _ .vmem, ⟨5, _⟩ => ⟨S8x128, .f32⟩
  | _, _ => ⟨S128x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x512x128_S8x512x128_0_0_0 : ∀ a, (![0, 0, 0] : Fin 3 → Nat) a + S8x512x128.size a ≤ S8x512x128.size a
  h_S8x512x128 : 0 < S8x512x128.numel
  reduces_S8x512x128_S8x512 : S8x512x128.Reduces [2] S8x512
  bitsLt_bf16_f32 : FTy.bits .bf16 < FTy.bits .f32
  shapeCasts_S8x512_S8x1x512 : S8x512.ShapeCasts S8x1x512
  broadcasts_S8x1x512_S8x512x512 : S8x1x512.Broadcasts S8x512x512
  reduces_S8x512x512_S8x512 : S8x512x512.Reduces [2] S8x512
  reduces_S8x512_S8 : S8x512.Reduces [1] S8
  shapeCasts_S8_S8x1 : S8.ShapeCasts S8x1
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S128x128_S128x1_0_0 : S128x128.Slices ![0, 0] S128x1
  shapeCasts_S128x1_S128 : S128x1.ShapeCasts S128
  dot_S8x512x128_S8x512x128_S8x512x512_2_2_1_1_0_0_wf : DotDims.WF S8x512x128 S8x512x128 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x128.size a ≤ S128x512x128.size a
  hwx0_0 : ∀ i : grid0.Coords, EltTy.bits .f32 = 32 ∨ (Rect.block (s := S128x512x128) S8x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x128.size a ≤ S128x512x128.size a
  hwx0_1 : ∀ i : grid0.Coords, EltTy.bits .f32 = 32 ∨ (Rect.block (s := S128x512x128) S8x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S128x128.size a
  hwx0_2 : ∀ i : grid0.Coords, EltTy.bits .f32 = 32 ∨ (Rect.block (s := S128x128) S8x128.size (cc0_transform_2 i) (hinb0_2 i)).WholeWords (EltTy.packing .f32)

variable [Facts₀]

def dot_S8x512x128_S8x512x128_S8x512x512_2_2_1_1_0_0 : DotDims S8x512x128 S8x512x128 S8x512x512 where
  lhsContracting := [2]
  rhsContracting := [2]
  lhsNonContracting := [1]
  rhsNonContracting := [1]
  lhsBatch := [0]
  rhsBatch := [0]
  wf := dot_S8x512x128_S8x512x128_S8x512x512_2_2_1_1_0_0_wf

abbrev win0_0 : Pipeline.Window sig grid0 :=
  Pipeline.Window.ofSpec (Memref.whole main_arg0) S8x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512x128 : Shape := ⟨3, ![128, 512, 128]⟩
abbrev S_ : Shape := ⟨0, ![]⟩
abbrev S128x512 : Shape := ⟨2, ![128, 512]⟩
abbrev S128x512x512 : Shape := ⟨3, ![128, 512, 512]⟩
abbrev S128x512x1 : Shape := ⟨3, ![128, 512, 1]⟩
abbrev S128x1x512 : Shape := ⟨3, ![128, 1, 512]⟩
abbrev S128 : Shape := ⟨1, ![128]⟩

abbrev nBuf : Space → Nat
  | .hbm => 22
  | .vmem => 0
  | .smem => 0
  | _ => 0

abbrev bufTy : (tb : Table) → Fin (tcTables nBuf tb) → BufTy
  | .hbm, ⟨0, _⟩ => ⟨S128x512x128, .f32⟩
  | .hbm, ⟨1, _⟩ => ⟨S128x512x128, .f32⟩
  | .hbm, ⟨2, _⟩ => ⟨S128x512x128, .f32⟩
  | .hbm, ⟨3, _⟩ => ⟨S_, .f32⟩
  | .hbm, ⟨4, _⟩ => ⟨S128x512, .f32⟩
  | .hbm, ⟨5, _⟩ => ⟨S128x512x128, .f32⟩
  | .hbm, ⟨6, _⟩ => ⟨S_, .f32⟩
  | .hbm, ⟨7, _⟩ => ⟨S128x512, .f32⟩
  | .hbm, ⟨8, _⟩ => ⟨S128x512x512, .f32⟩
  | .hbm, ⟨9, _⟩ => ⟨S_, .f32⟩
  | .hbm, ⟨10, _⟩ => ⟨S128x512x512, .f32⟩
  | .hbm, ⟨11, _⟩ => ⟨S128x512x512, .f32⟩
  | .hbm, ⟨12, _⟩ => ⟨S128x512x1, .f32⟩
  | .hbm, ⟨13, _⟩ => ⟨S128x512x512, .f32⟩
  | .hbm, ⟨14, _⟩ => ⟨S128x512x512, .f32⟩
  | .hbm, ⟨15, _⟩ => ⟨S128x1x512, .f32⟩
  | .hbm, ⟨16, _⟩ => ⟨S128x512x512, .f32⟩
  | .hbm, ⟨17, _⟩ => ⟨S128x512x512, .f32⟩
  | .hbm, ⟨18, _⟩ => ⟨S_, .f32⟩
  | .hbm, ⟨19, _⟩ => ⟨S128x512, .f32⟩
  | .hbm, ⟨20, _⟩ => ⟨S_, .f32⟩
  | .hbm, ⟨21, _⟩ => ⟨S128, .f32⟩
  | _, _ => ⟨S128x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S128x512x128_S128x512_d2 : S128x512x128.ReducesTo [2] S128x512
  h_S_ : 0 < S_.numel
  bcast_S_S128x512x512 : S_.BroadcastsInDim S128x512x512 (![] : Fin 0 → Fin S128x512x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  bcast_S128x512_S128x1x512_0_2 : S128x512.BroadcastsInDim S128x1x512 (![0, 2] : Fin 2 → Fin S128x1x512.rank)
  bcast_S128x1x512_S128x512x512_0_1_2 : S128x1x512.BroadcastsInDim S128x512x512 (![0, 1, 2] : Fin 3 → Fin S128x512x512.rank)
  reducesTo_S128x512x512_S128x512_d2 : S128x512x512.ReducesTo [2] S128x512
  reducesTo_S128x512_S128_d1 : S128x512.ReducesTo [1] S128
  dot_S128x512x128_S128x512x128_S128x512x512_2_2_1_1_0_0_wf : DotDims.WF S128x512x128 S128x512x128 S128x512x512 [2] [2] [1] [1] [0] [0]

variable [Facts₀]

def dot_S128x512x128_S128x512x128_S128x512x512_2_2_1_1_0_0 : DotDims S128x512x128 S128x512x128 S128x512x512 where
  lhsContracting := [2]
  rhsContracting := [2]
  lhsNonContracting := [1]
  rhsNonContracting := [1]
  lhsBatch := [0]
  rhsBatch := [0]
  wf := dot_S128x512x128_S128x512x128_S128x512x512_2_2_1_1_0_0_wf

class Facts : Prop extends Facts₀ where

variable [Facts]
-- ==== Proof.Score.lean ====
/-
  The mathematics of the late-interaction score, one batch row at a time, on the extended reals.

  For one batch row let `Q q d` be the query tokens and `D k d` the document tokens. Both programs compute
  `∑_q max_k ( -‖Q q - D k‖² )` through the expansion `-‖q - d‖² = 2 q·d - ‖q‖² - ‖d‖²`, arranged differently:

  * `rScore`: the maximum over `k` of `(2 · q·d - ‖q‖²) - ‖d‖²`, summed over `q`.
  * `kScore`: the cross term `q·d` is assembled from three products `q·d + q·(d - d) + (q - q)·d` (the two
    residual factors `d - d` and `q - q` are what is left of a split into a leading part and a remainder once
    the leading part is the number itself); then `2 · max_k (q·d - ½ ‖d‖²) - ‖q‖²`, summed over `q`.

  On FINITE entries the residuals vanish, and `x ↦ 2 x - ‖q‖²` is increasing, so it passes through the maximum:
  `2 · max_k (a_k - ½ c_k) - s = max_k ((2 a_k - s) - c_k)`. Finiteness is needed twice: `x - x = 0` fails at the
  infinities, and so does moving a factor through a maximum that may be `⊥`.
-/
import Idealize.ShloMosaic.PureOps.Ideal
import Mathlib.Tactic.Ring
import Mathlib.Tactic.Linarith

noncomputable section

namespace Cert.MaxSim

variable {ι κ δ : Type} [Fintype ι] [Fintype κ] [Fintype δ]

/-- The score as the kernel arranges it. -/
def kScore (Q : ι → δ → EReal) (D : κ → δ → EReal) : EReal :=
  ∑ q : ι, (((2 : ℝ) : EReal) * ((Finset.univ : Finset κ).fold max (⊥ : EReal) (fun k =>
      ((∑ d : δ, Q q d * D k d + ∑ d : δ, Q q d * (D k d - D k d)) + ∑ d : δ, (Q q d - Q q d) * D k d)
        - ((0.5 : ℝ) : EReal) * ∑ d : δ, D k d * D k d))
    - ∑ d : δ, Q q d * Q q d)

/-- The score as the reference arranges it. -/
def rScore (Q : ι → δ → EReal) (D : κ → δ → EReal) : EReal :=
  ∑ q : ι, (Finset.univ : Finset κ).fold max (⊥ : EReal) (fun k =>
      (((2 : ℝ) : EReal) * ∑ d : δ, Q q d * D k d - ∑ d : δ, Q q d * Q q d) - ∑ d : δ, D k d * D k d)

/-- The coercion of a finite sum of reals is the sum of the coercions. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum from `⊥` of finitely many reals, over a nonempty index set, is the real maximum. -/
theorem fold_max_coe [Nonempty κ] (a : κ → ℝ) :
    (Finset.univ : Finset κ).fold max (⊥ : EReal) (fun k => ((a k : ℝ) : EReal))
      = ((Finset.univ.sup' Finset.univ_nonempty a : ℝ) : EReal) := by
  have key : ∀ (s : Finset κ) (hs : s.Nonempty),
      s.fold max (⊥ : EReal) (fun k => ((a k : ℝ) : EReal)) = ((s.sup' hs a : ℝ) : EReal) := by
    intro s hs
    induction hs using Finset.Nonempty.cons_induction with
    | singleton k => rw [Finset.fold_singleton, Finset.sup'_singleton, max_eq_left bot_le]
    | cons k s hk hs ih => rw [Finset.fold_cons, ih, Finset.sup'_cons hs]; exact (EReal.coe_strictMono.monotone.map_max).symm
  exact key _ _

/-- An increasing affine map passes through a finite maximum of reals. -/
theorem two_mul_sup'_sub [Nonempty κ] (a c : κ → ℝ) (s : ℝ) :
    2 * Finset.univ.sup' Finset.univ_nonempty (fun k => a k - 0.5 * c k) - s
      = Finset.univ.sup' Finset.univ_nonempty (fun k => (2 * a k - s) - c k) := by
  have hmono : Monotone (fun x : ℝ => 2 * x - s) := fun x y h => by
    show 2 * x - s ≤ 2 * y - s
    linarith
  have h := Finset.comp_sup'_eq_sup'_comp (s := (Finset.univ : Finset κ)) Finset.univ_nonempty
    (f := fun k => a k - 0.5 * c k) (fun x : ℝ => 2 * x - s) (fun x y => hmono.map_max)
  rw [h]
  refine Finset.sup'_congr _ rfl (fun k _ => ?_)
  show 2 * (a k - 0.5 * c k) - s = 2 * a k - s - c k
  ring

/-- THE LAW: on finite entries the two arrangements of the score agree. -/
theorem kScore_eq_rScore [Nonempty κ] (Q : ι → δ → ℝ) (D : κ → δ → ℝ) :
    kScore (fun q d => ((Q q d : ℝ) : EReal)) (fun k d => ((D k d : ℝ) : EReal))
      = rScore (fun q d => ((Q q d : ℝ) : EReal)) (fun k d => ((D k d : ℝ) : EReal)) := by
  unfold kScore rScore
  refine Finset.sum_congr rfl (fun q _ => ?_)
  have hk : ∀ k : κ,
      ((∑ d : δ, ((Q q d : ℝ) : EReal) * ((D k d : ℝ) : EReal)
          + ∑ d : δ, ((Q q d : ℝ) : EReal) * (((D k d : ℝ) : EReal) - ((D k d : ℝ) : EReal)))
          + ∑ d : δ, (((Q q d : ℝ) : EReal) - ((Q q d : ℝ) : EReal)) * ((D k d : ℝ) : EReal))
        - ((0.5 : ℝ) : EReal) * ∑ d : δ, ((D k d : ℝ) : EReal) * ((D k d : ℝ) : EReal)
      = (((∑ d : δ, Q q d * D k d) - 0.5 * ∑ d : δ, D k d * D k d : ℝ) : EReal) := by
    intro k
    simp only [← EReal.coe_sub, sub_self, EReal.coe_zero, mul_zero, zero_mul, Finset.sum_const_zero, add_zero,
      ← EReal.coe_mul, ← coe_sum]
  have hr : ∀ k : κ,
      (((2 : ℝ) : EReal) * ∑ d : δ, ((Q q d : ℝ) : EReal) * ((D k d : ℝ) : EReal)
          - ∑ d : δ, ((Q q d : ℝ) : EReal) * ((Q q d : ℝ) : EReal))
        - ∑ d : δ, ((D k d : ℝ) : EReal) * ((D k d : ℝ) : EReal)
      = (((2 * ∑ d : δ, Q q d * D k d - ∑ d : δ, Q q d * Q q d) - ∑ d : δ, D k d * D k d : ℝ) : EReal) := by
    intro k
    simp only [← EReal.coe_sub, ← EReal.coe_mul, ← coe_sum]
  simp only [hk, hr]
  rw [fold_max_coe, fold_max_coe]
  simp only [← EReal.coe_mul, ← coe_sum, ← EReal.coe_sub]
  rw [two_mul_sup'_sub]

end Cert.MaxSim

end
-- ==== Proof.Consts.lean ====
/-
  The float constants the two programs spell, as the extended reals their patterns denote: one half, two, and
  the bottom element `-∞` that both maxima start from. (Zero is in the library.)
-/
import Idealize.ShloMosaic.PureOps.Ideal

noncomputable section

namespace Cert.MaxSim.Consts

open Idealize.ShloMosaic

/-- The pattern of `0.5` denotes the real one half. -/
theorem ofBits_half : Ideal.ofBits .f32 0x3F000000#32 = ((0.5 : ℝ) : EReal) := by
  simp [Ideal.ofBits, Ideal.ieee, -EReal.coe_mul]; norm_num

/-- The pattern of `2.0` denotes the real two. -/
theorem ofBits_two : Ideal.ofBits .f32 0x40000000#32 = ((2 : ℝ) : EReal) := by
  simp [Ideal.ofBits, Ideal.ieee, -EReal.coe_mul]; norm_num

/-- The pattern of negative infinity denotes the bottom element. -/
theorem ofBits_neg_inf : Ideal.ofBits .f32 0xFF800000#32 = (⊥ : EReal) := by
  simp [Ideal.ofBits, Ideal.ieee]

/-- The pattern of positive infinity denotes the top element. -/
theorem ofBits_pos_inf : Ideal.ofBits .f32 0x7F800000#32 = (⊤ : EReal) := by
  simp [Ideal.ofBits, Ideal.ieee]

end Cert.MaxSim.Consts

end
-- ==== Proof.Rows.lean ====
/-
  One batch row of a `[n, 512, 128]` array as a matrix of 512 tokens by 128 features: what the score of that batch
  row is a function of, whether the array is a whole argument (`n = 128`) or one block of eight batch rows.
-/
import Idealize.ShloMosaic.Lib.ValueIdx
import Idealize.ShloMosaic.PureOps.Ideal

noncomputable section

namespace Cert.MaxSim

open Idealize.ShloMosaic Idealize.ShloMosaic.ValueIdx

/-- Batch row `b` of `x`: token `q`, feature `d`. -/
def row {n : Nat} (x : (⟨3, ![n, 512, 128]⟩ : Shape).Idx → EReal) (b : Fin n) : Fin 512 → Fin 128 → EReal :=
  fun q d => x (ix3 b q d)

theorem row_apply {n : Nat} (x : (⟨3, ![n, 512, 128]⟩ : Shape).Idx → EReal) (b : Fin n) (q : Fin 512) (d : Fin 128) :
    row x b q d = x (ix3 b q d) := rfl

end Cert.MaxSim

end
-- ==== Proof.Payload.lean ====
/-
  What the kernel body stores, read at one entry. The body works on a block of eight batch rows. At entry
  `(p, l)` of its `[8, 128]` result it stores the score of batch row `p` of the block, the same in every lane `l`:
  `kScore` of row `p` of the two loaded blocks.

  The pieces: a sum of squares over the feature axis; a matrix product over the feature axis, read as a plain sum;
  `½ ‖d‖²` laid along the query axis; the maximum over the document axis from `-∞`; the sum over the query axis; and
  the final spread of one number per batch row across the lanes.
-/
import proofs.«122914_j78829829751029_2_alg».proof.Proof.Gen.KernelIdeal.Skeleton
import proofs.«122914_j78829829751029_2_alg».proof.Proof.Score
import proofs.«122914_j78829829751029_2_alg».proof.Proof.Consts
import proofs.«122914_j78829829751029_2_alg».proof.Proof.Rows
import Idealize.ShloMosaic.Lib.Pipeline.Value
import Idealize.ShloMosaic.Lib.ValueIdx
import Idealize.ShloMosaic.PureOps.Ideal.Laws

noncomputable section

namespace Cert.MaxSim.Body

open Cert.KernelIdeal Cert.KernelIdeal.Gen
open Idealize.ShloMosaic Idealize.ShloMosaic.ValueIdx Cert.MaxSim

/-! ## Reductions read at an index -/

/-- A sum over the feature axis of a `[8, 512, 128]` vector, at `(p, q)`. -/
theorem sumFeat_apply (w : FVec Ideal S8x512x128 .f32) (p : Fin 8) (q : Fin 512) :
    multiReduction .add [2] S8x512 w 0x00000000#32 reduces_S8x512x128_S8x512 (.inl rfl) rfl (ix2 p q)
      = ∑ d : Fin 128, w (ix3 p q d) := by
  refine (Ideal.multiReduction_add_single w 0x00000000#32 reduces_S8x512x128_S8x512 (.inl rfl) rfl (ix2 p q)).trans ?_
  refine Finset.sum_congr rfl fun d _ => ?_
  exact congrArg w (funext fun a => Fin.ext (by match a with | ⟨0, _⟩ => rfl | ⟨1, _⟩ => rfl | ⟨2, _⟩ => rfl))

/-- The maximum over the document axis of a `[8, 512, 512]` vector, from `-∞`, at `(p, q)`. -/
theorem maxDoc_apply (w : FVec Ideal S8x512x512 .f32) (p : Fin 8) (q : Fin 512) :
    multiReduction .maximumf [2] S8x512 w 0xFF800000#32 reduces_S8x512x512_S8x512 (.inl rfl) rfl (ix2 p q)
      = (Finset.univ : Finset (Fin 512)).fold max (⊥ : EReal) (fun k => w (ix3 p q k)) := by
  refine (Ideal.multiReduction_maximumf_single w 0xFF800000#32 reduces_S8x512x512_S8x512 (.inl rfl) rfl (ix2 p q)).trans ?_
  show (Finset.univ : Finset (Fin 512)).fold max (Ideal.ofBits .f32 0xFF800000#32)
      (fun k => w (reduces_S8x512x512_S8x512.lift (ix2 p q) k)) = _
  rw [Consts.ofBits_neg_inf]
  refine Finset.fold_congr fun k _ => ?_
  exact congrArg w (funext fun a => Fin.ext (by match a with | ⟨0, _⟩ => rfl | ⟨1, _⟩ => rfl | ⟨2, _⟩ => rfl))

/-- A sum over the query axis of a `[8, 512]` vector, at `p`. -/
theorem sumQuery_apply (u : FVec Ideal S8x512 .f32) (p : Fin 8) :
    multiReduction .add [1] S8 u 0x00000000#32 reduces_S8x512_S8 (.inl rfl) rfl (ix1 p)
      = ∑ q : Fin 512, u (ix2 p q) := by
  refine (Ideal.multiReduction_add_single u 0x00000000#32 reduces_S8x512_S8 (.inl rfl) rfl (ix1 p)).trans ?_
  refine Finset.sum_congr rfl fun q _ => ?_
  exact congrArg u (funext fun a => Fin.ext (by match a with | ⟨0, _⟩ => rfl | ⟨1, _⟩ => rfl))

/-! ## The matrix product read at an index -/

theorem lhs_0 (i : S8x512x512.Idx) (c : dot_S8x512x128_S8x512x128_S8x512x512_2_2_1_1_0_0.contr.Idx) :
    (dot_S8x512x128_S8x512x128_S8x512x512_2_2_1_1_0_0.lhsIdx i c 0).val = (i 0).val := by
  unfold DotDims.lhsIdx
  rw [dif_pos (show (0 : Fin S8x512x128.rank) ∈ dot_S8x512x128_S8x512x128_S8x512x512_2_2_1_1_0_0.lhsBatch by decide)]
  rfl
theorem lhs_1 (i : S8x512x512.Idx) (c : dot_S8x512x128_S8x512x128_S8x512x512_2_2_1_1_0_0.contr.Idx) :
    (dot_S8x512x128_S8x512x128_S8x512x512_2_2_1_1_0_0.lhsIdx i c 1).val = (i 1).val := by
  unfold DotDims.lhsIdx
  rw [dif_neg (show ¬(1 : Fin S8x512x128.rank) ∈ dot_S8x512x128_S8x512x128_S8x512x512_2_2_1_1_0_0.lhsBatch by decide), dif_pos (show (1 : Fin S8x512x128.rank) ∈ dot_S8x512x128_S8x512x128_S8x512x512_2_2_1_1_0_0.lhsNonContracting by decide)]
  rfl
theorem lhs_2 (i : S8x512x512.Idx) (c : dot_S8x512x128_S8x512x128_S8x512x512_2_2_1_1_0_0.contr.Idx) :
    (dot_S8x512x128_S8x512x128_S8x512x512_2_2_1_1_0_0.lhsIdx i c 2).val = (c ⟨0, by decide⟩).val :=
  dot_S8x512x128_S8x512x128_S8x512x512_2_2_1_1_0_0.lhsIdx_val_of_single rfl i c
theorem rhs_0 (i : S8x512x512.Idx) (c : dot_S8x512x128_S8x512x128_S8x512x512_2_2_1_1_0_0.contr.Idx) :
    (dot_S8x512x128_S8x512x128_S8x512x512_2_2_1_1_0_0.rhsIdx i c 0).val = (i 0).val := by
  unfold DotDims.rhsIdx
  rw [dif_pos (show (0 : Fin S8x512x128.rank) ∈ dot_S8x512x128_S8x512x128_S8x512x512_2_2_1_1_0_0.rhsBatch by decide)]
  rfl
theorem rhs_1 (i : S8x512x512.Idx) (c : dot_S8x512x128_S8x512x128_S8x512x512_2_2_1_1_0_0.contr.Idx) :
    (dot_S8x512x128_S8x512x128_S8x512x512_2_2_1_1_0_0.rhsIdx i c 1).val = (i 2).val := by
  unfold DotDims.rhsIdx
  rw [dif_neg (show ¬(1 : Fin S8x512x128.rank) ∈ dot_S8x512x128_S8x512x128_S8x512x512_2_2_1_1_0_0.rhsBatch by decide), dif_pos (show (1 : Fin S8x512x128.rank) ∈ dot_S8x512x128_S8x512x128_S8x512x512_2_2_1_1_0_0.rhsNonContracting by decide)]
  rfl
theorem rhs_2 (i : S8x512x512.Idx) (c : dot_S8x512x128_S8x512x128_S8x512x512_2_2_1_1_0_0.contr.Idx) :
    (dot_S8x512x128_S8x512x128_S8x512x512_2_2_1_1_0_0.rhsIdx i c 2).val = (c ⟨0, by decide⟩).val :=
  dot_S8x512x128_S8x512x128_S8x512x512_2_2_1_1_0_0.rhsIdx_val_of_single rfl i c

/-- The product of query tokens by document tokens into a zero accumulator, at `(p, q, k)`: the sum over the
    features of query token `q` times document token `k`, both of batch row `p`. -/
theorem matmul_apply (lhs rhs : FVec Ideal S8x512x128 .bf16) (p : Fin 8) (q k : Fin 512) :
    matmul dot_S8x512x128_S8x512x128_S8x512x512_2_2_1_1_0_0 none lhs rhs (constant (F := Ideal) S8x512x512 .f32 0x00000000#32) (ix3 p q k)
      = ∑ d : Fin 128, lhs (ix3 p q d) * rhs (ix3 p k d) := by
  simp only [matmul]
  rw [Ideal.matmul_constant_zero_apply, ← Equiv.sum_comp (ValueIdx.contrEquiv1 dot_S8x512x128_S8x512x128_S8x512x512_2_2_1_1_0_0 128 rfl rfl).symm]
  refine Finset.sum_congr rfl fun d _ => ?_
  have hk := ValueIdx.contrEquiv1_symm_val dot_S8x512x128_S8x512x128_S8x512x512_2_2_1_1_0_0 128 rfl rfl d
  have el : dot_S8x512x128_S8x512x128_S8x512x512_2_2_1_1_0_0.lhsIdx (ix3 p q k) ((ValueIdx.contrEquiv1 dot_S8x512x128_S8x512x128_S8x512x512_2_2_1_1_0_0 128 rfl rfl).symm d) = ix3 p q d := funext fun a => Fin.ext (by
    match a with
    | ⟨0, _⟩ => exact lhs_0 _ _
    | ⟨1, _⟩ => exact lhs_1 _ _
    | ⟨2, _⟩ => exact (lhs_2 _ _).trans hk)
  have er : dot_S8x512x128_S8x512x128_S8x512x512_2_2_1_1_0_0.rhsIdx (ix3 p q k) ((ValueIdx.contrEquiv1 dot_S8x512x128_S8x512x128_S8x512x512_2_2_1_1_0_0 128 rfl rfl).symm d) = ix3 p k d := funext fun a => Fin.ext (by
    match a with
    | ⟨0, _⟩ => exact rhs_0 _ _
    | ⟨1, _⟩ => exact rhs_1 _ _
    | ⟨2, _⟩ => exact (rhs_2 _ _).trans hk)
  rw [el, er]

/-! ## Layout chains read at an index -/

/-- One number per `(p, k)`, laid along the query axis: entry `(p, q, k)` is the number at `(p, k)`. -/
theorem alongQuery_apply {α : Type} (y : S8x512.Idx → α) (p : Fin 8) (q k : Fin 512) :
    broadcastTo S8x512x512 (shapeCast S8x1x512 y shapeCasts_S8x512_S8x1x512) broadcasts_S8x1x512_S8x512x512 (ix3 p q k)
      = y (ix2 p k) := by
  refine (broadcastTo_apply _ broadcasts_S8x1x512_S8x512x512 (ix3 p q k) (ix3 p (0 : Fin 1) k) ?_).trans ?_
  · intro a
    match a with
    | ⟨0, _⟩ => show p.val = if (8 : Nat) = 1 then 0 else p.val; rw [if_neg (by decide)]
    | ⟨1, _⟩ => show 0 = if (1 : Nat) = 1 then 0 else q.val; rw [if_pos rfl]
    | ⟨2, _⟩ => show k.val = if (512 : Nat) = 1 then 0 else k.val; rw [if_neg (by decide)]
  · refine shapeCast_apply y shapeCasts_S8x512_S8x1x512 (ix3 p (0 : Fin 1) k) (ix2 p k) ?_
    rw [Shape.rowMajor_val_two, Shape.rowMajor_val_three]
    show p.val * 512 + k.val = (p.val * 1 + 0) * 512 + k.val
    omega

/-- One number per batch row, spread across the lanes: entry `(p, l)` is the number at `p`. -/
theorem acrossLanes_apply {α : Type} (z : S8.Idx → α) (p : Fin 8) (l : Fin 128) :
    broadcastTo S8x128 (shapeCast S8x1 (shapeCast S8x1 z shapeCasts_S8_S8x1) shapeCasts_S8x1_S8x1) broadcasts_S8x1_S8x128 (ix2 p l)
      = z (ix1 p) := by
  refine (broadcastTo_apply _ broadcasts_S8x1_S8x128 (ix2 p l) (ix2 p (0 : Fin 1)) ?_).trans ?_
  · intro a
    match a with
    | ⟨0, _⟩ => show p.val = if (8 : Nat) = 1 then 0 else p.val; rw [if_neg (by decide)]
    | ⟨1, _⟩ => show 0 = if (1 : Nat) = 1 then 0 else l.val; rw [if_pos rfl]
  · rw [shapeCast_self]
    refine shapeCast_apply z shapeCasts_S8_S8x1 (ix2 p (0 : Fin 1)) (ix1 p) ?_
    rw [Shape.rowMajor_val_one, Shape.rowMajor_val_two]
    show p.val = p.val * 1 + 0
    omega

/-! ## The body's stored value -/

/-- THE PAYLOAD at `(p, l)`: the kernel's arrangement of the score, of batch row `p` of the two loaded blocks. -/
theorem payload_apply (v0 v1 : Vec Ideal S8x512x128 .f32) (p : Fin 8) (l : Fin 128) :
    k0_pay1 (F := Ideal) v0 v1 (ix2 p l) = kScore (row (n := 8) v0 p) (row (n := 8) v1 p) := by
  unfold k0_pay1
  refine (acrossLanes_apply _ p l).trans ?_
  refine (sumQuery_apply _ p).trans ?_
  unfold kScore
  refine Finset.sum_congr rfl fun q _ => ?_
  refine (subf_apply _ _ _).trans (congrArg₂ (· - ·) ?_ ?_)
  · refine (mulf_apply _ _ _).trans (congrArg₂ (· * ·) Consts.ofBits_two ?_)
    refine (maxDoc_apply _ p q).trans ?_
    refine Finset.fold_congr fun k _ => ?_
    refine (subf_apply _ _ _).trans (congrArg₂ (· - ·) ?_ ?_)
    · refine (addf_apply _ _ _).trans (congrArg₂ (· + ·) ((addf_apply _ _ _).trans (congrArg₂ (· + ·) ?_ ?_)) ?_)
      · exact matmul_apply _ _ p q k
      · exact matmul_apply _ _ p q k
      · exact matmul_apply _ _ p q k
    · refine (alongQuery_apply _ p q k).trans ?_
      refine (mulf_apply _ _ _).trans (congrArg₂ (· * ·) Consts.ofBits_half ?_)
      exact sumFeat_apply _ p k
  · exact sumFeat_apply _ p q

end Cert.MaxSim.Body

end
-- ==== Proof.Blocks.lean ====
/-
  From blocks to the whole array. Grid point `t` works on batch rows `8 t … 8 t + 7`: it reads that block of both
  arguments and writes that block of the `[128, 128]` result. Entry `(r, l)` of the result depends only on batch
  row `r` of the two arguments, so the blocks are the restrictions of ONE function of the whole arguments
  (`outArr`), and the sixteen blocks cover the result: after the run the result array is `outArr`.
-/
import proofs.«122914_j78829829751029_2_alg».proof.Proof.Gen.KernelIdeal.Frame
import proofs.«122914_j78829829751029_2_alg».proof.Proof.Payload
import Idealize.ShloMosaic.Lib.Pipeline.Value

noncomputable section

namespace Cert.MaxSim.Blocks

open Cert.KernelIdeal Cert.KernelIdeal.Gen Idealize.ShloMosaic Idealize.ShloMosaic.TcCoe Idealize.SL.Sem
open Idealize.ShloMosaic.Pipeline (Dat)
open Idealize.ShloMosaic.ValueIdx Cert.MaxSim

variable (m : (ℓ : Loc nD τ sig) → Buf (Elt Ideal) ℓ) (ρ : Dev nD → PrngReg)

/-- The result array as one function of the argument arrays: at `(r, l)` the score of batch row `r`. -/
def outArr (a0 a1 : S128x512x128.Idx → EReal) : S128x128.Idx → EReal := fun i =>
  kScore (row (n := 128) a0 (⟨(i 0).val, (i 0).isLt⟩ : Fin 128)) (row (n := 128) a1 (⟨(i 0).val, (i 0).isLt⟩ : Fin 128))

theorem hz2 : (![0, 0] : Fin 2 → Nat) = fun _ => 0 := funext fun a => by fin_cases a <;> rfl
theorem hz3 : (![0, 0, 0] : Fin 3 → Nat) = fun _ => 0 := funext fun a => by fin_cases a <;> rfl

/-- The payload of two blocks whose batch row `p` is batch row `b` of the arguments is the score of that row. -/
theorem entry_eq (x0 x1 : Vec Ideal S8x512x128 .f32) (a0 a1 : S128x512x128.Idx → EReal) (p : Fin 8) (l : Fin 128) (b : Fin 128)
    (h0 : ∀ (q : Fin 512) (d : Fin 128), x0 (ix3 p q d) = a0 (ix3 b q d))
    (h1 : ∀ (q : Fin 512) (d : Fin 128), x1 (ix3 p q d) = a1 (ix3 b q d)) :
    k0_pay1 (F := Ideal) x0 x1 (ix2 p l) = kScore (row (n := 128) a0 b) (row (n := 128) a1 b) := by
  rw [Body.payload_apply]
  have e0 : row (n := 8) x0 p = row (n := 128) a0 b := funext fun q => funext fun d => h0 q d
  have e1 : row (n := 8) x1 p = row (n := 128) a1 b := funext fun q => funext fun d => h1 q d
  rw [e0, e1]

/-- The printed index maps, decided over the sixteen grid points: both inputs' blocks move with the result's block
    along the batch axis and sit at the origin of the other axes. -/
theorem idx_facts : ∀ t : Fin cfg0.N,
    win0_0.index t (0 : Fin 3) = win0_2.index t (0 : Fin 2) ∧ win0_0.index t (1 : Fin 3) = 0 ∧ win0_0.index t (2 : Fin 3) = 0
    ∧ win0_1.index t (0 : Fin 3) = win0_2.index t (0 : Fin 2) ∧ win0_1.index t (1 : Fin 3) = 0 ∧ win0_1.index t (2 : Fin 3) = 0
    ∧ win0_2.index t (1 : Fin 2) = 0 ∧ win0_2.index t (0 : Fin 2) ≤ 15 :=
  (by decide +kernel : ∀ t : Fin grid0.N, _)

/-- Every block of eight batch rows is some grid point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- What grid point `t` writes back is block `t` of `outArr` of the arguments as the region finds them. -/
theorem flushed_eq (c : Dev nD) (t : Fin cfg0.N) :
    (dats m 0 c).flushed 2 t = ((cfg0.win 2).blk t).view.read (Elt Ideal) (outArr (V m c main_arg0) (V m c main_arg1)) := by
  show (cfg0.win 2).cut (grid0.coords t) ((dats m 0 c).after 2 t) = _
  rw [after0_2]
  unfold out0_2
  rw [View.canon_unit_zero hz2]
  simp only [View.ld_unit_zero (S := S8x512x128) hz3]
  obtain ⟨e00, e01, e02, e10, e11, e12, e21, hle⟩ := idx_facts t
  funext j
  obtain ⟨p, l, rfl⟩ : ∃ (p : Fin 8) (l : Fin 128), j = ix2 p l := ⟨j 0, j 1, eq_ix2 j⟩
  have hb : win0_2.index t (0 : Fin 2) * 8 + p.val < 128 := by have := p.isLt; omega
  show k0_pay1 (F := Ideal) (iblk m c 0 t) (iblk m c 1 t) (ix2 p l)
      = outArr (V m c main_arg0) (V m c main_arg1) (((cfg0.win 2).blk t).view.emb (ix2 p l))
  refine (entry_eq (iblk m c 0 t) (iblk m c 1 t) (V m c main_arg0) (V m c main_arg1) p l
    ⟨win0_2.index t (0 : Fin 2) * 8 + p.val, hb⟩ ?_ ?_).trans ?_
  · intro q d
    show V m c main_arg0 (((cfg0.win 0).blk t).view.emb (ix3 p q d)) = V m c main_arg0 (ix3 ⟨win0_2.index t (0 : Fin 2) * 8 + p.val, hb⟩ q d)
    refine congrArg (V m c main_arg0) (funext fun a => Fin.ext ?_)
    match a with
    | ⟨0, _⟩ => show win0_0.index t (0 : Fin 3) * 8 + 1 * p.val = win0_2.index t (0 : Fin 2) * 8 + p.val; omega
    | ⟨1, _⟩ => show win0_0.index t (1 : Fin 3) * 512 + 1 * q.val = q.val; omega
    | ⟨2, _⟩ => show win0_0.index t (2 : Fin 3) * 128 + 1 * d.val = d.val; omega
  · intro q d
    show V m c main_arg1 (((cfg0.win 1).blk t).view.emb (ix3 p q d)) = V m c main_arg1 (ix3 ⟨win0_2.index t (0 : Fin 2) * 8 + p.val, hb⟩ q d)
    refine congrArg (V m c main_arg1) (funext fun a => Fin.ext ?_)
    match a with
    | ⟨0, _⟩ => show win0_1.index t (0 : Fin 3) * 8 + 1 * p.val = win0_2.index t (0 : Fin 2) * 8 + p.val; omega
    | ⟨1, _⟩ => show win0_1.index t (1 : Fin 3) * 512 + 1 * q.val = q.val; omega
    | ⟨2, _⟩ => show win0_1.index t (2 : Fin 3) * 128 + 1 * d.val = d.val; omega
  · unfold outArr
    have e : (⟨win0_2.index t (0 : Fin 2) * 8 + p.val, hb⟩ : Fin 128)
        = ⟨((((cfg0.win 2).blk t).view.emb (ix2 p l)) 0).val, ((((cfg0.win 2).blk t).view.emb (ix2 p l)) 0).isLt⟩ :=
      Fin.ext (by show win0_2.index t (0 : Fin 2) * 8 + p.val = win0_2.index t (0 : Fin 2) * 8 + 1 * p.val; omega)
    rw [e]

/-- An index of the result array is in grid point `t`'s block iff each coordinate is in the block's range. -/
theorem mem_blk (t : Fin cfg0.N) (i : S128x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The sixteen blocks cover the result array: row `r` is in the block of grid point `r / 8`. -/
theorem cover (i : S128x128.Idx) : ∃ t : Fin cfg0.N, (cfg0.win 2).flush t = true ∧ i ∈ ((cfg0.win 2).blk t).view.set := by
  have hi0 : (i 0).val < 128 := (i 0).isLt
  have hi1 : (i 1).val < 128 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- THE RESULT ARRAY after the run: `outArr` of the argument arrays. -/
theorem final (c : Dev nD) :
    (dats m 0 c).arrAt 2 cfg0.N = outArr (m ((c : Thread nD τ).loc main_arg0)) (m ((c : Thread nD τ).loc main_arg1)) :=
  (dats m 0 c).arrAt_eq_of_cover 2 (outArr (V m c main_arg0) (V m c main_arg1)) (fun t _ => flushed_eq m c t) cover

end Cert.MaxSim.Blocks

end
-- ==== Proof.Tail.lean ====
/-
  After the region the host takes lane 0 of the `[128, 128]` result array and drops the unit axis: the program's
  result at batch row `r` is the array's entry `(r, 0)`, the score of batch row `r`. With the result array known as
  one function of the arguments, this names the kernel's result after the run.
-/
import proofs.«122914_j78829829751029_2_alg».proof.Proof.Blocks
import Idealize.ShloMosaic.Lib.StableHlo.Run
import Idealize.ShloMosaic.Lib.Pipeline.Value

noncomputable section

namespace Cert.MaxSim.Tail

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.MaxSim

variable (m : (ℓ : Loc nD τ sig) → Buf (Elt Ideal) ℓ) (ρ : Dev nD → PrngReg)

/-- The program's result as one function of the argument arrays: at batch row `r` the score of that row. -/
def result (a0 a1 : S128x512x128.Idx → EReal) : S128.Idx → EReal := fun i =>
  kScore (row (n := 128) a0 (⟨(i 0).val, (i 0).isLt⟩ : Fin 128)) (row (n := 128) a1 (⟨(i 0).val, (i 0).isLt⟩ : Fin 128))

/-- What the host lines after the region leave in the result buffer. -/
theorem tail_eq (c : Dev nD) :
    Pipeline.afterTail₀ cfgs (dats m) 0 (V0 m) [hostOps1] c main_v2
      = result (m ((c : Thread nD τ).loc main_arg0)) (m ((c : Thread nD τ).loc main_arg1)) := by
  have hA : Pipeline.withArrays (cfgs 0).spec c (V0 m c) (fun w => (dats m 0 c).arrAt w (cfgs 0).N) (Proc.devRef .tc main_v0)
      = Blocks.outArr (m ((c : Thread nD τ).loc main_arg0)) (m ((c : Thread nD τ).loc main_arg1)) :=
    (Pipeline.withArrays_arr spec0 launch0.win.arr_inj c _ _ 2).trans (Blocks.final m c)
  unfold Pipeline.afterTail₀
  show StableHlo.after hostOps1 _ (Proc.devRef .tc main_v2) = _
  after_results
  funext i
  obtain ⟨r, rfl⟩ : ∃ r : Fin 128, i = ix1 r := ⟨i 0, eq_ix1 i⟩
  show shapeCast S128 (extractStridedSlice S128x1 ![0, 0]
      (Pipeline.withArrays (cfgs 0).spec c (V0 m c) (fun w => (dats m 0 c).arrAt w (cfgs 0).N) (Proc.devRef .tc main_v0))
      slices_S128x128_S128x1_0_0) shapeCasts_S128x1_S128 (ix1 r) = _
  refine (shapeCast_apply _ shapeCasts_S128x1_S128 (ix1 r) (ix2 r (0 : Fin 1)) ?_).trans ?_
  · rw [Shape.rowMajor_val_two, Shape.rowMajor_val_one]
    show r.val * 1 + 0 = r.val
    omega
  · refine (extractStridedSlice_apply ![0, 0] _ slices_S128x128_S128x1_0_0 (ix2 r (0 : Fin 1)) (ix2 r (0 : Fin 128)) ?_).trans ?_
    · intro a
      match a with
      | ⟨0, _⟩ => show r.val = 0 + r.val; omega
      | ⟨1, _⟩ => show 0 = 0 + 0; rfl
    · exact (congrFun hA (ix2 r (0 : Fin 128))).trans rfl

/-- THE KERNEL'S RUN, read: every weakly fair execution ends with the result buffer at `result` of the argument
    arrays, and the argument arrays unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 rfl (by intro w; fin_cases w <;> decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.MaxSim.Tail

end
-- ==== Proof.Finite.lean ====
/-
  From the precondition to real numbers. The precondition says that `|x| < +∞` holds at every entry of both
  arguments (a conjunction of two `all`-folds). An extended real whose absolute value is below `+∞` is neither
  infinity, so it is a real number.
-/
import proofs.«122914_j78829829751029_2_alg».proof.Pre_finite_inputs
import proofs.«122914_j78829829751029_2_alg».proof.Proof.Consts
import Idealize.ShloMosaic.Lib.ReduceAll
import Idealize.ShloMosaic.Lib.ValueIdx
import Idealize.ShloMosaic.PureOps.Ideal

noncomputable section

namespace Cert.MaxSim.Finite

open Idealize.ShloMosaic Cert.Pre_finite_inputs

/-- An extended real with `|x| < +∞` is a real. -/
theorem real_of_abs_lt_inf (x : EReal)
    (h : Ideal.cmp .olt (max x (-x)) (Ideal.ofBits .f32 0x7F800000#32) = 1#1) : ∃ r : ℝ, x = (r : EReal) := by
  rw [Consts.ofBits_pos_inf] at h
  induction x using EReal.rec with
  | bot => simp [Ideal.cmp] at h
  | top => simp [Ideal.cmp] at h
  | coe r => exact ⟨r, rfl⟩

/-- Under the precondition every entry of both arguments is a real number. -/
theorem reals_of_pre [Cert.Pre_finite_inputs.Facts] (x0 x1 : FVec Ideal S128x512x128 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  haveI : Subsingleton S_.Idx := ⟨fun a b => funext fun d => d.elim0⟩
  refine ⟨fun i => ?_, fun i => ?_⟩
  · exact real_of_abs_lt_inf (x0 i) (Host.reduce_andi_all _ _ _ _ _ ha i)
  · exact real_of_abs_lt_inf (x1 i) (Host.reduce_andi_all _ _ _ _ _ hb i)

end Cert.MaxSim.Finite

end
-- ==== Proof.RefRow.lean ====
/-
  The reference's result at batch row `i` is `rScore` of that row of the two arguments: the squared norms are sums
  over the feature axis, the cross term is the contraction over the feature axis, the broadcasts place `‖q‖²` along
  the document axis and `‖d‖²` along the query axis, the maximum runs over the document axis from `-∞`, and the
  last sum runs over the query axis from zero.
-/
import proofs.«122914_j78829829751029_2_alg».proof.Proof.Gen.ReferenceIdeal.Read
import proofs.«122914_j78829829751029_2_alg».proof.Proof.Score
import proofs.«122914_j78829829751029_2_alg».proof.Proof.Consts
import proofs.«122914_j78829829751029_2_alg».proof.Proof.Rows

noncomputable section

namespace Cert.MaxSim.Ref

open Cert.ReferenceIdeal Cert.ReferenceIdeal.Gen Cert.ReferenceIdeal.Read
open Idealize.ShloMosaic Idealize.ShloMosaic.ValueIdx Cert.MaxSim

/-- The entry `(b, q, k)` before the maximum: `(2 · q·d - ‖q‖²) - ‖d‖²` for query token `q` and document token `k`
    of batch row `b`. -/
theorem negDist_apply (x0 x1 : (⟨S128x512x128, .f32⟩ : BufTy).Contents (Elt Ideal)) (b : Fin 128) (q k : Fin 512) :
    val_main_v12 (F := Ideal) x0 x1 (ix3 b q k)
      = (((2 : ℝ) : EReal) * ∑ d : Fin 128, row x0 b q d * row x1 b k d - ∑ d : Fin 128, row x0 b q d * row x0 b q d)
          - ∑ d : Fin 128, row x1 b k d * row x1 b k d := by
  have e4l : ∀ d : Fin 128, lidx_main_v4 (ix3 b q k) d = ix3 b q d := fun d =>
    funext fun a => Fin.ext (by match a with | ⟨0, _⟩ => rfl | ⟨1, _⟩ => rfl | ⟨2, _⟩ => rfl)
  have e4r : ∀ d : Fin 128, ridx_main_v4 (ix3 b q k) d = ix3 b k d := fun d =>
    funext fun a => Fin.ext (by match a with | ⟨0, _⟩ => rfl | ⟨1, _⟩ => rfl | ⟨2, _⟩ => rfl)
  have e1 : ∀ d : Fin 128, idx_main_v1 (idx_main_v7 (idx_main_v8 (ix3 b q k))) d = ix3 b q d := fun d =>
    funext fun a => Fin.ext (by match a with | ⟨0, _⟩ => rfl | ⟨1, _⟩ => rfl | ⟨2, _⟩ => rfl)
  have e3 : ∀ d : Fin 128, idx_main_v3 (idx_main_v10 (idx_main_v11 (ix3 b q k))) d = ix3 b k d := fun d =>
    funext fun a => Fin.ext (by match a with | ⟨0, _⟩ => rfl | ⟨1, _⟩ => rfl | ⟨2, _⟩ => rfl)
  rw [val_main_v12_apply, val_main_v9_apply, val_main_v6_apply, val_main_v5_apply, val_main_cst_1_apply,
    val_main_v4_apply, val_main_v8_apply, val_main_v7_apply, val_main_v1_apply, val_main_v11_apply,
    val_main_v10_apply, val_main_v3_apply]
  simp only [val_main_v0_apply, val_main_v2_apply, val_main_cst_apply, val_main_cst_0_apply, Ideal.mulf_def,
    Ideal.subf_def, Ideal.ofBits_def, Ideal.ofBits_zero_f32, zero_add, Consts.ofBits_two, e4l, e4r, e1, e3]
  rfl

/-- The maximum over the document tokens, for query token `q` of batch row `b`. -/
theorem rowMax_apply (x0 x1 : (⟨S128x512x128, .f32⟩ : BufTy).Contents (Elt Ideal)) (b : Fin 128) (q : Fin 512) :
    val_main_v13 (F := Ideal) x0 x1 (ix2 b q)
      = (Finset.univ : Finset (Fin 512)).fold max (⊥ : EReal) (fun k =>
          (((2 : ℝ) : EReal) * ∑ d : Fin 128, row x0 b q d * row x1 b k d - ∑ d : Fin 128, row x0 b q d * row x0 b q d)
            - ∑ d : Fin 128, row x1 b k d * row x1 b k d) := by
  have h : Shape.Reduces S128x512x512 [(2 : Fin 3)] S128x512 := by decide
  unfold val_main_v13
  rw [Host.reduce_eq_fold_single FloatOps.maximumf _ _ reducesTo_S128x512x512_S128x512_d2 h h_S_ (ix2 b q)]
  show (Finset.univ : Finset (Fin 512)).fold max (Ideal.ofBits .f32 0xFF800000#32)
      (fun k => val_main_v12 (F := Ideal) x0 x1 (h.lift (ix2 b q) k)) = _
  rw [Consts.ofBits_neg_inf]
  refine Finset.fold_congr (fun k _ => ?_)
  have e : h.lift (ix2 b q) k = ix3 b q k :=
    funext fun a => Fin.ext (by match a with | ⟨0, _⟩ => rfl | ⟨1, _⟩ => rfl | ⟨2, _⟩ => rfl)
  rw [e]
  exact negDist_apply x0 x1 b q k

/-- THE REFERENCE at batch row `i`. -/
theorem result_apply (x0 x1 : (⟨S128x512x128, .f32⟩ : BufTy).Contents (Elt Ideal)) (i : S128.Idx) :
    val_main_v14 (F := Ideal) x0 x1 i
      = rScore (row x0 (⟨(i 0).val, (i 0).isLt⟩ : Fin 128)) (row x1 (⟨(i 0).val, (i 0).isLt⟩ : Fin 128)) := by
  rw [val_main_v14_apply, val_main_cst_3_apply, Ideal.ofBits_def, Ideal.ofBits_zero_f32, zero_add]
  unfold rScore
  refine Finset.sum_congr rfl (fun q _ => ?_)
  have e : idx_main_v14 i q = ix2 (⟨(i 0).val, (i 0).isLt⟩ : Fin 128) q :=
    funext fun a => Fin.ext (by match a with | ⟨0, _⟩ => rfl | ⟨1, _⟩ => rfl)
  rw [e]
  exact rowMax_apply x0 x1 _ q

end Cert.MaxSim.Ref

end
-- ==== Proof.Bridge.lean ====
/-
  The two programs compute one function on finite arguments: at every batch row the kernel's arrangement of the
  score (`kScore`, read off the kernel) and the reference's (`rScore`, read off the reference) agree once every
  entry of that row is a real number.
-/
import proofs.«122914_j78829829751029_2_alg».proof.Proof.Tail
import proofs.«122914_j78829829751029_2_alg».proof.Proof.RefRow
import proofs.«122914_j78829829751029_2_alg».proof.Proof.Score

noncomputable section

namespace Cert.MaxSim.Bridge

open Idealize.ShloMosaic Idealize.ShloMosaic.ValueIdx Cert.MaxSim

/-- On arguments whose entries are all real numbers, the kernel's result is the reference's. -/
theorem result_eq_ref (x0 x1 : Cert.ReferenceIdeal.S128x512x128.Idx → EReal)
    (h0 : ∀ i, ∃ r : ℝ, x0 i = (r : EReal)) (h1 : ∀ i, ∃ r : ℝ, x1 i = (r : EReal)) :
    Tail.result x0 x1 = Cert.ReferenceIdeal.Read.val_main_v14 (F := Ideal) x0 x1 := by
  choose f0 hf0 using h0
  choose f1 hf1 using h1
  funext i
  rw [Ref.result_apply]
  unfold Tail.result
  have e0 : ∀ b : Fin 128, row (n := 128) x0 b = fun q d => ((f0 (ix3 b q d) : ℝ) : EReal) :=
    fun b => funext fun q => funext fun d => hf0 _
  have e1 : ∀ b : Fin 128, row (n := 128) x1 b = fun q d => ((f1 (ix3 b q d) : ℝ) : EReal) :=
    fun b => funext fun q => funext fun d => hf1 _
  rw [e0, e1]
  exact kScore_eq_rScore _ _

end Cert.MaxSim.Bridge

end
-- ==== Proof.lean ====
/-
  A late-interaction retrieval score with the squared-distance metric: for each of 128 batch rows, with 512 query
  tokens and 512 document tokens of 128 features,
      score_b = ∑_q max_k ( -‖Q_bq - D_bk‖² ),   where   -‖q - d‖² = 2 q·d - ‖q‖² - ‖d‖².

  The reference forms `(2 q·d - ‖q‖²) - ‖d‖²` for every pair, takes the maximum over the document tokens and sums
  over the query tokens. The kernel works on blocks of eight batch rows. It splits each argument into a leading
  part and a remainder and assembles `q·d` from three products; at the ideal values a change of float format is the
  identity, so the remainders are `q - q` and `d - d`. It then takes `2 · max_k (q·d - ½‖d‖²) - ‖q‖²`, sums over the
  query tokens, spreads the one number per batch row across 128 lanes, and the host keeps lane 0.

  On finite inputs the remainders are zero and the increasing map `x ↦ 2x - ‖q‖²` passes through the maximum, so the
  two are the same function (Proof/Score.lean). Finiteness is used: `x - x` is not `0` at an infinity.

  The modules: Score (the law, over the reals), Consts (the constants' values), Rows (one batch row of an array),
  RefRow (the reference's result at a batch row), Payload (what the kernel body stores, at an entry), Blocks (the
  result array from its sixteen blocks), Tail (the host's last two lines, and the kernel's run), Finite (the
  precondition gives real entries), Bridge (the two results are one function).
-/
import proofs.«122914_j78829829751029_2_alg».proof.Defs
import proofs.«122914_j78829829751029_2_alg».proof.Proof.Gen.Kernel
import proofs.«122914_j78829829751029_2_alg».proof.Proof.Gen.Kernel.Skeleton
import proofs.«122914_j78829829751029_2_alg».proof.Proof.Gen.Kernel.Launch
import proofs.«122914_j78829829751029_2_alg».proof.Proof.Gen.Kernel.Points
import proofs.«122914_j78829829751029_2_alg».proof.Proof.Gen.Kernel.Frame
import proofs.«122914_j78829829751029_2_alg».proof.Proof.Gen.KernelIdeal
import proofs.«122914_j78829829751029_2_alg».proof.Proof.Gen.KernelIdeal.Skeleton
import proofs.«122914_j78829829751029_2_alg».proof.Proof.Gen.KernelIdeal.Launch
import proofs.«122914_j78829829751029_2_alg».proof.Proof.Gen.KernelIdeal.Points
import proofs.«122914_j78829829751029_2_alg».proof.Proof.Gen.KernelIdeal.Frame
import proofs.«122914_j78829829751029_2_alg».proof.Proof.Gen.ReferenceIdeal
import proofs.«122914_j78829829751029_2_alg».proof.Proof.Gen.Pre_finite_inputs
import proofs.«122914_j78829829751029_2_alg».proof.Proof.Gen.ReferenceIdeal.Run
import proofs.«122914_j78829829751029_2_alg».proof.Proof.Gen.ReferenceIdeal.Read
import proofs.«122914_j78829829751029_2_alg».proof.Proof.Tail
import proofs.«122914_j78829829751029_2_alg».proof.Proof.Finite
import proofs.«122914_j78829829751029_2_alg».proof.Proof.Bridge
import Idealize.ShloMosaic.Adequacy
import Idealize.ShloMosaic.Init

noncomputable section

namespace Cert.Proof

open Idealize.ShloMosaic Idealize.ShloMosaic.TcCoe Idealize.SL.Sem Cert.MaxSim

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: narrowing each argument block to the short format and widening it back
    is the identity at the ideal values. -/
theorem preserves : Cert.preserves_Kernel_KernelIdeal :=
  ⟨IdealRules.truncf_extf.statement Cert.KernelIdeal.S8x512x128 .f32 .bf16,
   IdealRules.truncf_extf.statement Cert.KernelIdeal.S8x512x128 .f32 .bf16⟩

/-- From memories agreeing on the arguments, under the precondition, both programs end with the score of every
    batch row: the kernel with its own arrangement (`Tail.run`), the reference with its own (the reference's run read
    at a batch row), equal because the precondition makes every entry a real number (`Bridge.result_eq_ref`). -/
theorem algebraic : Cert.algebraic_KernelIdeal_ReferenceIdeal := by
  intro m ρ m' ρ' hpre hagree
  refine ⟨fun c => Tail.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v14_eq]
  obtain ⟨h0, h1⟩ := Finite.reals_of_pre _ _ (hpre c)
  exact (Bridge.result_eq_ref _ _ h0 h1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
